-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x128 : Shape := ⟨2, ![1024, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn_part1 {F : FTy → Type} [FloatOps F] (main_arg4 : FVec F S1024x128 .f32) (main_arg5 : FVec F S1024x128 .f32) (main_v13 : IVec S_ 1) (main_v16 : IVec S1024x128 1) : IVec S_ 1 :=
  let main_c_5 : IVec S_ 1 := constantI S_ 1 1#1
  let main_v17 : IVec S_ 1 := (fun x v => Host.reduce IntOp.andi x v reducesTo_S1024x128_S_d0_1 h_S_) main_v16 main_c_5
  let main_v18 : IVec S_ 1 := andi main_v13 main_v17
  let main_v19 : FVec F S1024x128 .f32 := Host.absf main_arg4
  let main_cst_6 : FVec F S_ .f32 := constant S_ .f32 0x7F800000#32
  let main_v20 : FVec F S1024x128 .f32 := broadcastInDim S1024x128 ![] bcast_S_S1024x128 main_cst_6
  let main_v21 : IVec S1024x128 1 := cmpf .olt main_v19 main_v20
  let main_c_7 : IVec S_ 1 := constantI S_ 1 1#1
  let main_v22 : IVec S_ 1 := (fun x v => Host.reduce IntOp.andi x v reducesTo_S1024x128_S_d0_1 h_S_) main_v21 main_c_7
  let main_v23 : IVec S_ 1 := andi main_v18 main_v22
  let main_v24 : FVec F S1024x128 .f32 := Host.absf main_arg5
  let main_cst_8 : FVec F S_ .f32 := constant S_ .f32 0x7F800000#32
  let main_v25 : FVec F S1024x128 .f32 := broadcastInDim S1024x128 ![] bcast_S_S1024x128 main_cst_8
  let main_v26 : IVec S1024x128 1 := cmpf .olt main_v24 main_v25
  let main_c_9 : IVec S_ 1 := constantI S_ 1 1#1
  let main_v27 : IVec S_ 1 := (fun x v => Host.reduce IntOp.andi x v reducesTo_S1024x128_S_d0_1 h_S_) main_v26 main_c_9
  let main_v28 : IVec S_ 1 := andi main_v23 main_v27
  main_v28

def fn {F : FTy → Type} [FloatOps F] (main_arg0 : FVec F S8x2048x1024 .f32) (main_arg1 : FVec F S8x2048x1024 .f32) (main_arg2 : FVec F S8x2048x1024 .f32) (main_arg3 : FVec F S1024x128 .f32) (main_arg4 : FVec F S1024x128 .f32) (main_arg5 : FVec F S1024x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x2048x1024 .f32 := Host.absf main_arg1
  let main_cst_0 : FVec F S_ .f32 := constant S_ .f32 0x7F800000#32
  let main_v5 : FVec F S8x2048x1024 .f32 := broadcastInDim S8x2048x1024 ![] bcast_S_S8x2048x1024 main_cst_0
  let main_v6 : IVec S8x2048x1024 1 := cmpf .olt main_v4 main_v5
  let main_c_1 : IVec S_ 1 := constantI S_ 1 1#1
  let main_v7 : IVec S_ 1 := (fun x v => Host.reduce IntOp.andi x v reducesTo_S8x2048x1024_S_d0_1_2 h_S_) main_v6 main_c_1
  let main_v8 : IVec S_ 1 := andi main_v3 main_v7
  let main_v9 : FVec F S8x2048x1024 .f32 := Host.absf main_arg2
  let main_cst_2 : FVec F S_ .f32 := constant S_ .f32 0x7F800000#32
  let main_v10 : FVec F S8x2048x1024 .f32 := broadcastInDim S8x2048x1024 ![] bcast_S_S8x2048x1024 main_cst_2
  let main_v11 : IVec S8x2048x1024 1 := cmpf .olt main_v9 main_v10
  let main_c_3 : IVec S_ 1 := constantI S_ 1 1#1
  let main_v12 : IVec S_ 1 := (fun x v => Host.reduce IntOp.andi x v reducesTo_S8x2048x1024_S_d0_1_2 h_S_) main_v11 main_c_3
  let main_v13 : IVec S_ 1 := andi main_v8 main_v12
  let main_v14 : FVec F S1024x128 .f32 := Host.absf main_arg3
  let main_cst_4 : FVec F S_ .f32 := constant S_ .f32 0x7F800000#32
  let main_v15 : FVec F S1024x128 .f32 := broadcastInDim S1024x128 ![] bcast_S_S1024x128 main_cst_4
  let main_v16 : IVec S1024x128 1 := cmpf .olt main_v14 main_v15
  fn_part1 (F := F) main_arg4 main_arg5 main_v13 main_v16
-- ==== Kernel.lean ====
abbrev S8x2048x1024 : Shape := ⟨3, ![8, 2048, 1024]⟩
abbrev S1024x128 : Shape := ⟨2, ![1024, 128]⟩
abbrev S8x2048x128 : Shape := ⟨3, ![8, 2048, 128]⟩
abbrev S1x512x1024 : Shape := ⟨3, ![1, 512, 1024]⟩
abbrev S1x512x128 : Shape := ⟨3, ![1, 512, 128]⟩
abbrev S512x1024 : Shape := ⟨2, ![512, 1024]⟩
abbrev S512x128 : Shape := ⟨2, ![512, 128]⟩
abbrev S1x128x128 : Shape := ⟨3, ![1, 128, 128]⟩
abbrev S1x2048x128 : Shape := ⟨3, ![1, 2048, 128]⟩
abbrev S128x128 : Shape := ⟨2, ![128, 128]⟩
abbrev S2048x128 : Shape := ⟨2, ![2048, 128]⟩
abbrev S128x2048 : Shape := ⟨2, ![128, 2048]⟩
abbrev S128 : Shape := ⟨1, ![128]⟩
abbrev S128x1 : Shape := ⟨2, ![128, 1]⟩

abbrev nBuf : Space → Nat
  | .hbm => 10
  | .vmem => 23
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S8x2048x128, .bf16⟩
  | .hbm, ⟨7, _⟩ => ⟨S8x2048x128, .bf16⟩
  | .hbm, ⟨8, _⟩ => ⟨S8x2048x128, .bf16⟩
  | .hbm, ⟨9, _⟩ => ⟨S8x2048x128, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x128x128, .f32⟩
  | .local _ .vmem, ⟨22, _⟩ => ⟨S1x128x128, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1024x128_S1024x128_0_0 : ∀ a, (![0, 0] : Fin 2 → Nat) a + S1024x128.size a ≤ S1024x128.size a
  h_S1024x128 : 0 < S1024x128.numel
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  reduces_S128x2048_S128 : S128x2048.Reduces [1] S128
  shapeCasts_S128_S128x1 : S128.ShapeCasts S128x1
  broadcasts_S128x1_S128x2048 : S128x1.Broadcasts S128x2048
  shapeCasts_S128x128_S1x128x128 : S128x128.ShapeCasts S1x128x128
  dot_S512x1024_S1024x128_S512x128_1_0_0_1_n_n_wf : DotDims.WF S512x1024 S1024x128 S512x128 [1] [0] [0] [1] [] []
  dot_S128x128_S2048x128_S128x2048_1_1_0_0_n_n_wf : DotDims.WF S128x128 S2048x128 S128x2048 [1] [1] [0] [0] [] []
  dot_S128x2048_S2048x128_S128x128_1_0_0_1_n_n_wf : DotDims.WF S128x2048 S2048x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x2048x1024.size a
  hwx0_0 : ∀ i : grid0.Coords, EltTy.bits .f32 = 32 ∨ (Rect.block (s := S8x2048x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S8x2048x1024.size a
  hwx0_2 : ∀ i : grid0.Coords, EltTy.bits .f32 = 32 ∨ (Rect.block (s := S8x2048x1024) S1x512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S1024x128.size a
  hwx0_3 : ∀ i : grid0.Coords, EltTy.bits .f32 = 32 ∨ (Rect.block (s := S1024x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x128.size a ≤ S1024x128.size a
  hwx0_4 : ∀ i : grid0.Coords, EltTy.bits .f32 = 32 ∨ (Rect.block (s := S1024x128) S1024x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x128.size a ≤ S1024x128.size a
  hwx0_5 : ∀ i : grid0.Coords, EltTy.bits .f32 = 32 ∨ (Rect.block (s := S1024x128) S1024x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x128.size a ≤ S8x2048x128.size a
  hwx0_6 : ∀ i : grid0.Coords, EltTy.bits .bf16 = 32 ∨ (Rect.block (s := S8x2048x128) S1x512x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x128.size a ≤ S8x2048x128.size a
  hwx0_7 : ∀ i : grid0.Coords, EltTy.bits .bf16 = 32 ∨ (Rect.block (s := S8x2048x128) S1x512x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512x128.size a ≤ S8x2048x128.size a
  hwx0_8 : ∀ i : grid0.Coords, EltTy.bits .bf16 = 32 ∨ (Rect.block (s := S8x2048x128) S1x512x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S8x2048x128.size a
  hwx1_0 : ∀ i : grid1.Coords, EltTy.bits .bf16 = 32 ∨ (Rect.block (s := S8x2048x128) S1x128x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x128.size a ≤ S8x2048x128.size a
  hwx1_1 : ∀ i : grid1.Coords, EltTy.bits .bf16 = 32 ∨ (Rect.block (s := S8x2048x128) S1x2048x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x128.size a ≤ S8x2048x128.size a
  hwx1_2 : ∀ i : grid1.Coords, EltTy.bits .bf16 = 32 ∨ (Rect.block (s := S8x2048x128) S1x2048x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S8x2048x128.size a
  hwx1_3 : ∀ i : grid1.Coords, EltTy.bits .f32 = 32 ∨ (Rect.block (s := S8x2048x128) S1x128x128.size (cc1_transform_3 i) (hinb1_3 i)).WholeWords (EltTy.packing .f32)

variable [Facts₀]

def dot_S512x1024_S1024x128_S512x128_1_0_0_1_n_n : DotDims S512x1024 S1024x128 S512x128 where
  lhsContracting := [1]
  rhsContracting := [0]
  lhsNonContracting := [0]
  rhsNonContracting := [1]
  lhsBatch := []
  rhsBatch := []
  wf := dot_S512x1024_S1024x128_S512x128_1_0_0_1_n_n_wf
def dot_S128x128_S2048x128_S128x2048_1_1_0_0_n_n : DotDims S128x128 S2048x128 S128x2048 where
  lhsContracting := [1]
  rhsContracting := [1]
  lhsNonContracting := [0]
  rhsNonContracting := [0]
  lhsBatch := []
  rhsBatch := []
  wf := dot_S128x128_S2048x128_S128x2048_1_1_0_0_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S1x512x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S1x512x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_2) S1x512x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v0_0) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x2048x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S1024x128 : Shape := ⟨2, ![1024, 128]⟩
abbrev S8x2048x128 : Shape := ⟨3, ![8, 2048, 128]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x2048x1024, .f32⟩
  | .hbm, ⟨3, _⟩ => ⟨S1024x128, .f32⟩
  | .hbm, ⟨4, _⟩ => ⟨S1024x128, .f32⟩
  | .hbm, ⟨5, _⟩ => ⟨S1024x128, .f32⟩
  | .hbm, ⟨6, _⟩ => ⟨S8x2048x128, .f32⟩
  | .hbm, ⟨7, _⟩ => ⟨S8x2048x128, .f32⟩
  | .hbm, ⟨8, _⟩ => ⟨S8x2048x128, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x128, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x128_S8x2048x128_2_0_01_1_n_n_wf : DotDims.WF S8x2048x1024 S1024x128 S8x2048x128 [2] [0] [0, 1] [1] [] []
  dot_S8x2048x128_S8x2048x128_S8x2048x2048_2_2_1_1_0_0_wf : DotDims.WF S8x2048x128 S8x2048x128 S8x2048x2048 [2] [2] [1] [1] [0] [0]
  dot_S8x2048x2048_S8x2048x128_S8x2048x128_2_1_1_2_0_0_wf : DotDims.WF S8x2048x2048 S8x2048x128 S8x2048x128 [2] [1] [1] [2] [0] [0]

variable [Facts₀]

def dot_S8x2048x1024_S1024x128_S8x2048x128_2_0_01_1_n_n : DotDims S8x2048x1024 S1024x128 S8x2048x128 where
  lhsContracting := [2]
  rhsContracting := [0]
  lhsNonContracting := [0, 1]
  rhsNonContracting := [1]
  lhsBatch := []
  rhsBatch := []
  wf := dot_S8x2048x1024_S1024x128_S8x2048x128_2_0_01_1_n_n_wf
def dot_S8x2048x128_S8x2048x128_S8x2048x2048_2_2_1_1_0_0 : DotDims S8x2048x128 S8x2048x128 S8x2048x2048 where
  lhsContracting := [2]
  rhsContracting := [2]
  lhsNonContracting := [1]
  rhsNonContracting := [1]
  lhsBatch := [0]
  rhsBatch := [0]
  wf := dot_S8x2048x128_S8x2048x128_S8x2048x2048_2_2_1_1_0_0_wf
def dot_S8x2048x2048_S8x2048x128_S8x2048x128_2_1_1_2_0_0 : DotDims S8x2048x2048 S8x2048x128 S8x2048x128 where
  lhsContracting := [2]
  rhsContracting := [1]
  lhsNonContracting := [1]
  rhsNonContracting := [2]
  lhsBatch := [0]
  rhsBatch := [0]
  wf := dot_S8x2048x2048_S8x2048x128_S8x2048x128_2_1_1_2_0_0_wf

class Facts : Prop extends Facts₀ where

variable [Facts]
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibBatchRows.lean ====
/-
  The reference's one-operand maximum-reduce along the LAST axis of a rank-3 a×b×c array, read at (p, q), on the extended
  reals: the fold of max, from the initial value's element, over the entries (p, q, k) — the rank-3 neighbour of the
  row maximum of a matrix. Nothing here mentions a program.
-/
import Idealize.ShloMosaic.PureOps.Ideal
import Idealize.ShloMosaic.PureOps.Ideal.Laws
import Idealize.ShloMosaic.PureOps.Reduce
import Idealize.ShloMosaic.Lib.ValueIdx

namespace Cert.Lib.BatchRows

open Idealize.ShloMosaic Idealize.ShloMosaic.ValueIdx

variable {a b c : Nat}

/-- The index (p, q) of the reduced array with the coordinate k of the last axis put back is (p, q, k). -/
theorem lift_last3 (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext ax; apply Fin.ext
  match ax with
  | ⟨0, _⟩ => rfl
  | ⟨1, _⟩ => rfl
  | ⟨2, _⟩ => rfl

/-- The reference's reduce with a maximum body along the last axis of an a×b×c array is at (p, q) the fold of max, from
    the initial value's element, over the entries (p, q, k). -/
theorem host_lastmax3_apply {u : Shape} (x : (⟨3, ![a, b, c]⟩ : Shape).Idx → Ideal .f32) (init : u.Idx → Ideal .f32)
    (h' : (⟨3, ![a, b, c]⟩ : Shape).ReducesTo [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  have h : (⟨3, ![a, b, c]⟩ : Shape).Reduces [2] ⟨2, ![a, b]⟩ := ⟨h'.1, Nat.zero_lt_two, h'.2⟩
  rw [Host.reduce_eq_fold_single FloatOps.maximumf x init h' h hu]
  have hf : (x ∘ h.lift (ix2 p q)) = fun k : Fin c => x (ix3 p q k) :=
    funext fun k => congrArg x (lift_last3 h p q k)
  exact congrArg (fun f => Finset.fold max (init (Shape.Idx.first hu)) f (Finset.univ : Finset (Fin c))) hf

end Cert.Lib.BatchRows
-- ==== Proof.LibSoftmaxRows.lean ====
/-
  The normalisation of a row by its exponentials, on the extended reals: every entry has the row's largest entry
  subtracted, is exponentiated, and is divided by the sum of the row's exponentials. The function rowSoftmax, the
  spelling a kernel body gives it on an a×b block (a lane maximum joined with the accumulator's value, re-shaped to a
  column and stretched across the row, a lane sum likewise), and the spelling a host program gives it along the last
  axis of an a×b×c array (a max-reduce joined with a splat of the initial value, two broadcasts, a sum-reduce), each
  read at an index. Also the unit leading axis of a block dropped and put back. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import proofs.«159014_j64141041598682_1_alg».proof.Proof.LibRowReductions
import proofs.«159014_j64141041598682_1_alg».proof.Proof.LibBatchRows

noncomputable section

open scoped BigOperators

namespace Cert.Lib.SoftmaxRows

open Idealize.ShloMosaic Idealize.ShloMosaic.ValueIdx

/-! ## The function -/

/-- The largest entry of a row, the way both spellings take it: the fold of max from the value lo, joined once more
    with lo. -/
def rowTop {n : Nat} (lo : EReal) (r : Fin n → EReal) : EReal :=
  max lo ((Finset.univ : Finset (Fin n)).fold max lo r)

/-- A row normalised by its exponentials: exp (r k − top) over the sum over j of exp (r j − top). -/
def rowSoftmax {n : Nat} (lo : EReal) (r : Fin n → EReal) (k : Fin n) : EReal :=
  Ideal.div (Ideal.exp (r k - rowTop lo r)) (∑ j : Fin n, Ideal.exp (r j - rowTop lo r))

/-! ## A kernel body's spelling on an a×b block -/

section Body
variable {a b : Nat}

/-- The exponentials of a block's entries less a per-row value held as a vector of a entries. -/
def bodyShifted (S : FVec Ideal ⟨2, ![a, b]⟩ .f32) (M : FVec Ideal ⟨1, ![a]⟩ .f32)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  exp (subf S (broadcastTo ⟨2, ![a, b]⟩ (shapeCast ⟨2, ![a, 1]⟩ M hc) hb))

theorem bodyShifted_apply (S : FVec Ideal ⟨2, ![a, b]⟩ .f32) (M : FVec Ideal ⟨1, ![a]⟩ .f32)
    (hc : (⟨1, ![a]⟩ : Shape).ShapeCasts ⟨2, ![a, 1]⟩) (hb : (⟨2, ![a, 1]⟩ : Shape).Broadcasts ⟨2, ![a, b]⟩)
    (p : Fin a) (k : Fin b) : bodyShifted S M hc hb (ix2 p k) = Ideal.exp (S (ix2 p k) - M (ix1 p)) := by
  show Ideal.exp (S (ix2 p k) - broadcastTo ⟨2, ![a, b]⟩ (shapeCast ⟨2, ![a, 1]⟩ M hc) hb (ix2 p k)) = _
  rw [RowReductions.broadcast_col_apply, RowReductions.shapeCast_col_apply]

/-- The body's per-row maximum: the lane maximum from the accumulator −∞ word, joined with a splat of the same word. -/
def bodyTop (S : FVec Ideal ⟨2, ![a, b]⟩ .f32) (hr : (⟨2, ![a, b]⟩ : Shape).Reduces [1] ⟨1, ![a]⟩) :
    FVec Ideal ⟨1, ![a]⟩ .f32 :=
  maximumf (broadcast ⟨1, ![a]⟩ (Scalar.ofBits (F := Ideal) .f32 0xFF800000#32))
    (multiReduction .maximumf [1] ⟨1, ![a]⟩ S 0xFF800000#32 hr (.inl rfl) rfl)

theorem bodyTop_apply (S : FVec Ideal ⟨2, ![a, b]⟩ .f32) (hr : (⟨2, ![a, b]⟩ : Shape).Reduces [1] ⟨1, ![a]⟩)
    (p : Fin a) : bodyTop S hr (ix1 p) = rowTop (Ideal.ofBits .f32 0xFF800000#32) (fun k => S (ix2 p k)) := by
  exact congrArg (max (Ideal.ofBits .f32 0xFF800000#32)) (RowReductions.rowmax_apply S 0xFF800000#32 hr (.inl rfl) rfl p)

/-- The body's spelling of the normalisation of every row of an a×b block. -/
def bodySoftmax (S : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩) :
    FVec Ideal ⟨2, ![a, b]⟩ .f32 :=
  divf (bodyShifted S (bodyTop S hr) hc hb)
    (broadcastTo ⟨2, ![a, b]⟩ (shapeCast ⟨2, ![a, 1]⟩
      (multiReduction .add [1] ⟨1, ![a]⟩ (bodyShifted S (bodyTop S hr) hc hb) 0x00000000#32 hr (.inl rfl) rfl) hc) hb)

/-- The body's spelling at (p, k) is the normalised row p at k. -/
theorem bodySoftmax_apply (S : FVec Ideal ⟨2, ![a, b]⟩ .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)
    (p : Fin a) (k : Fin b) :
    bodySoftmax S hr hc hb (ix2 p k) = rowSoftmax (Ideal.ofBits .f32 0xFF800000#32) (fun k' => S (ix2 p k')) k := by
  show Ideal.div (bodyShifted S (bodyTop S hr) hc hb (ix2 p k))
    (broadcastTo ⟨2, ![a, b]⟩ (shapeCast ⟨2, ![a, 1]⟩
      (multiReduction .add [1] ⟨1, ![a]⟩ (bodyShifted S (bodyTop S hr) hc hb) 0x00000000#32 hr (.inl rfl) rfl) hc) hb (ix2 p k)) = _
  rw [RowReductions.broadcast_col_apply, RowReductions.shapeCast_col_apply]
  refine (congrArg (Ideal.div _) (RowReductions.rowsum_apply _ 0x00000000#32 hr (.inl rfl) rfl p)).trans ?_
  rw [bodyShifted_apply, bodyTop_apply]
  unfold rowSoftmax
  refine congrArg _ (Finset.sum_congr rfl fun j _ => ?_)
  rw [bodyShifted_apply, bodyTop_apply]

end Body

/-! ## A host program's spelling along the last axis of an a×b×c array -/

section Host
variable {a b c : Nat}

/-- The array's entries less a per-(p, q) value, exponentiated, the value broadcast through an a×b×1 array. -/
def hostShifted (S : FVec Ideal ⟨3, ![a, b, c]⟩ .f32) (M : FVec Ideal ⟨2, ![a, b]⟩ .f32)
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2]) : FVec Ideal ⟨3, ![a, b, c]⟩ .f32 :=
  Host.exp (subf S (broadcastInDim ⟨3, ![a, b, c]⟩ ![0, 1, 2] h2 (broadcastInDim ⟨3, ![a, b, 1]⟩ ![0, 1] h1 M)))

/-- A per-(p, q) value broadcast through an a×b×1 array to a×b×c reads the value at (p, q). -/
theorem bcast_last_apply {α : Type} (M : (⟨2, ![a, b]⟩ : Shape).Idx → α)
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2]) (p : Fin a) (q : Fin b) (k : Fin c) :
    broadcastInDim ⟨3, ![a, b, c]⟩ ![0, 1, 2] h2 (broadcastInDim ⟨3, ![a, b, 1]⟩ ![0, 1] h1 M) (ix3 p q k) = M (ix2 p q) := by
  refine (broadcastInDim_apply _ h2 _ _ (ix3 p q 0) fun ax => ?_).trans
    (broadcastInDim_apply _ h1 M _ (ix2 p q) fun ax => ?_)
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl

theorem hostShifted_apply (S : FVec Ideal ⟨3, ![a, b, c]⟩ .f32) (M : FVec Ideal ⟨2, ![a, b]⟩ .f32)
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2]) (p : Fin a) (q : Fin b) (k : Fin c) :
    hostShifted S M h1 h2 (ix3 p q k) = Ideal.exp (S (ix3 p q k) - M (ix2 p q)) := by
  show Ideal.exp (S (ix3 p q k) - broadcastInDim ⟨3, ![a, b, c]⟩ ![0, 1, 2] h2 (broadcastInDim ⟨3, ![a, b, 1]⟩ ![0, 1] h1 M) (ix3 p q k)) = _
  rw [bcast_last_apply]

/-- The host's per-(p, q) maximum: the max-reduce along the last axis from a scalar initial value, joined with a splat of
    another scalar. -/
def hostTop (S : FVec Ideal ⟨3, ![a, b, c]⟩ .f32) (lo lo' : (⟨0, ![]⟩ : Shape).Idx → Ideal .f32)
    (h0 : (⟨0, ![]⟩ : Shape).BroadcastsInDim ⟨2, ![a, b]⟩ ![])
    (hred : (⟨3, ![a, b, c]⟩ : Shape).ReducesTo [2] ⟨2, ![a, b]⟩) (hu : 0 < (⟨0, ![]⟩ : Shape).numel) :
    FVec Ideal ⟨2, ![a, b]⟩ .f32 :=
  maximumf (broadcastInDim ⟨2, ![a, b]⟩ ![] h0 lo') (Host.reduce FloatOps.maximumf S lo hred hu)

theorem hostTop_apply (S : FVec Ideal ⟨3, ![a, b, c]⟩ .f32) (lo lo' : (⟨0, ![]⟩ : Shape).Idx → Ideal .f32)
    (h0 : (⟨0, ![]⟩ : Shape).BroadcastsInDim ⟨2, ![a, b]⟩ ![])
    (hred : (⟨3, ![a, b, c]⟩ : Shape).ReducesTo [2] ⟨2, ![a, b]⟩) (hu : 0 < (⟨0, ![]⟩ : Shape).numel)
    (p : Fin a) (q : Fin b) :
    hostTop S lo lo' h0 hred hu (ix2 p q)
      = max (lo' ix0) ((Finset.univ : Finset (Fin c)).fold max (lo (Shape.Idx.first hu)) (fun k => S (ix3 p q k))) := by
  show max (broadcastInDim ⟨2, ![a, b]⟩ ![] h0 lo' (ix2 p q)) (Host.reduce FloatOps.maximumf S lo hred hu (ix2 p q)) = _
  rw [RowReductions.bcastInDim_scalar_apply, BatchRows.host_lastmax3_apply]

/-- The host's sum-reduce along the last axis from a scalar initial value, read at (p, q). -/
theorem host_lastsum3_apply (x : FVec Ideal ⟨3, ![a, b, c]⟩ .f32) (init : (⟨0, ![]⟩ : Shape).Idx → Ideal .f32)
    (hred : (⟨3, ![a, b, c]⟩ : Shape).ReducesTo [2] ⟨2, ![a, b]⟩) (hu : 0 < (⟨0, ![]⟩ : Shape).numel)
    (p : Fin a) (q : Fin b) :
    Host.reduceAdd x init hred hu (ix2 p q) = init (Shape.Idx.first hu) + ∑ k : Fin c, x (ix3 p q k) := by
  have h : (⟨3, ![a, b, c]⟩ : Shape).Reduces [2] ⟨2, ![a, b]⟩ := ⟨hred.1, Nat.zero_lt_two, hred.2⟩
  simp only [Host.reduceAdd, Ideal.hostReduceAdd_def]
  rw [Ideal.hostReduceAdd_single hred h]
  exact congrArg (_ + ·) (Finset.sum_congr rfl fun k _ => congrArg x (BatchRows.lift_last3 h p q k))

/-- The host's spelling of the normalisation along the last axis. -/
def hostSoftmax (S : FVec Ideal ⟨3, ![a, b, c]⟩ .f32) (lo lo' z : (⟨0, ![]⟩ : Shape).Idx → Ideal .f32)
    (h0 : (⟨0, ![]⟩ : Shape).BroadcastsInDim ⟨2, ![a, b]⟩ ![])
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2])
    (hred : (⟨3, ![a, b, c]⟩ : Shape).ReducesTo [2] ⟨2, ![a, b]⟩) (hu : 0 < (⟨0, ![]⟩ : Shape).numel) :
    FVec Ideal ⟨3, ![a, b, c]⟩ .f32 :=
  Host.divf (hostShifted S (hostTop S lo lo' h0 hred hu) h1 h2)
    (broadcastInDim ⟨3, ![a, b, c]⟩ ![0, 1, 2] h2 (broadcastInDim ⟨3, ![a, b, 1]⟩ ![0, 1] h1
      (Host.reduceAdd (hostShifted S (hostTop S lo lo' h0 hred hu) h1 h2) z hred hu)))

/-- The host's spelling at (p, q, k), its three scalars the −∞ word twice and the zero word, is the normalised row
    (p, q) at k. -/
theorem hostSoftmax_apply (S : FVec Ideal ⟨3, ![a, b, c]⟩ .f32)
    (h0 : (⟨0, ![]⟩ : Shape).BroadcastsInDim ⟨2, ![a, b]⟩ ![])
    (h1 : (⟨2, ![a, b]⟩ : Shape).BroadcastsInDim ⟨3, ![a, b, 1]⟩ ![0, 1])
    (h2 : (⟨3, ![a, b, 1]⟩ : Shape).BroadcastsInDim ⟨3, ![a, b, c]⟩ ![0, 1, 2])
    (hred : (⟨3, ![a, b, c]⟩ : Shape).ReducesTo [2] ⟨2, ![a, b]⟩) (hu : 0 < (⟨0, ![]⟩ : Shape).numel)
    (p : Fin a) (q : Fin b) (k : Fin c) :
    hostSoftmax S (constant (F := Ideal) ⟨0, ![]⟩ .f32 0xFF800000#32) (constant (F := Ideal) ⟨0, ![]⟩ .f32 0xFF800000#32)
        (constant (F := Ideal) ⟨0, ![]⟩ .f32 0x00000000#32) h0 h1 h2 hred hu (ix3 p q k)
      = rowSoftmax (Ideal.ofBits .f32 0xFF800000#32) (fun k' => S (ix3 p q k')) k := by
  show Ideal.div (hostShifted S _ h1 h2 (ix3 p q k))
    (broadcastInDim ⟨3, ![a, b, c]⟩ ![0, 1, 2] h2 (broadcastInDim ⟨3, ![a, b, 1]⟩ ![0, 1] h1
      (Host.reduceAdd (hostShifted S _ h1 h2) _ hred hu)) (ix3 p q k)) = _
  rw [bcast_last_apply, host_lastsum3_apply, hostShifted_apply, hostTop_apply]
  unfold rowSoftmax rowTop
  rw [constant_apply, constant_apply, constant_apply, Ideal.ofBits_zero_f32, zero_add]
  refine congrArg _ (Finset.sum_congr rfl fun j _ => ?_)
  rw [hostShifted_apply, hostTop_apply, constant_apply, constant_apply]

end Host

/-! ## The unit leading axis of a block -/

section UnitAxis
variable {α : Type} {b c : Nat}

/-- A 1×b×c block with its unit axis dropped reads (0, q, r) at (q, r). -/
theorem dropLead_apply (v : (⟨3, ![1, b, c]⟩ : Shape).Idx → α) (h : (⟨3, ![1, b, c]⟩ : Shape).ShapeCasts ⟨2, ![b, c]⟩)
    (q : Fin b) (r : Fin c) : shapeCast ⟨2, ![b, c]⟩ v h (ix2 q r) = v (ix3 0 q r) := by
  refine shapeCast_apply v h _ _ ?_
  rw [Shape.rowMajor_val_two, Shape.rowMajor_val_three]
  show ((0 : Nat) * b + q.val) * c + r.val = q.val * c + r.val
  rw [Nat.zero_mul, Nat.zero_add]

/-- A b×c matrix given a unit leading axis reads (q, r) at (0, q, r). -/
theorem addLead_apply (v : (⟨2, ![b, c]⟩ : Shape).Idx → α) (h : (⟨2, ![b, c]⟩ : Shape).ShapeCasts ⟨3, ![1, b, c]⟩)
    (q : Fin b) (r : Fin c) : shapeCast ⟨3, ![1, b, c]⟩ v h (ix3 0 q r) = v (ix2 q r) := by
  refine shapeCast_apply v h _ _ ?_
  rw [Shape.rowMajor_val_two, Shape.rowMajor_val_three]
  show q.val * c + r.val = ((0 : Nat) * b + q.val) * c + r.val
  rw [Nat.zero_mul, Nat.zero_add]

/-- Every index of a 1×b×c block is (0, j 1, j 2). -/
theorem eq_ix3_lead (j : (⟨3, ![1, b, c]⟩ : Shape).Idx) : j = ix3 0 (j 1) (j 2) := by
  funext ax
  match ax with
  | ⟨0, _⟩ => exact Fin.ext (by have := (j 0).isLt; simp at this; simpa using this)
  | ⟨1, _⟩ => rfl
  | ⟨2, _⟩ => rfl

end UnitAxis

end Cert.Lib.SoftmaxRows

end
-- ==== Proof.Attention.lean ====
/-
  Single-head attention with the softmax applied twice, on the extended reals, as whole-array functions of the six
  argument arrays. A projection is X·W summed over the embedding coordinate; a score is the inner product of a
  projected query row and a projected key row times the scale word; each row of scores is normalised by its
  exponentials, and the result normalised once more; an output entry is the sum over the key positions of the doubly
  normalised weight times the projected value. Nothing here mentions a program.
-/
import proofs.«159014_j64141041598682_1_alg».proof.Proof.LibSoftmaxRows

noncomputable section

open scoped BigOperators

namespace Cert.Attention

open Idealize.ShloMosaic Idealize.ShloMosaic.ValueIdx Cert.Lib.SoftmaxRows

/-- Arrays of extended reals over literal shapes. -/
abbrev Arr3 (a b c : Nat) : Type := (⟨3, ![a, b, c]⟩ : Shape).Idx → EReal
abbrev Arr2 (a b : Nat) : Type := (⟨2, ![a, b]⟩ : Shape).Idx → EReal

/-- The scale both programs multiply the scores by: the single-precision word nearest 128^(−1/2), read exactly. -/
abbrev scaleWord : EReal := Ideal.ofBits .f32 0x3DB504F3#32
/-- The word both programs start a row's maximum from. -/
abbrev lowWord : EReal := Ideal.ofBits .f32 0xFF800000#32

/-- A linear projection: entry (b, s, h) is the sum over e of X(b, s, e) · W(e, h). -/
def projArr (X : Arr3 8 2048 1024) (W : Arr2 1024 128) : Arr3 8 2048 128 := fun i =>
  ∑ e : Fin 1024, X (ix3 (⟨(i 0).val, (i 0).isLt⟩ : Fin 8) (⟨(i 1).val, (i 1).isLt⟩ : Fin 2048) e)
    * W (ix2 e (⟨(i 2).val, (i 2).isLt⟩ : Fin 128))

theorem projArr_apply (X : Arr3 8 2048 1024) (W : Arr2 1024 128) (b : Fin 8) (s : Fin 2048) (h : Fin 128) :
    projArr X W (ix3 b s h) = ∑ e : Fin 1024, X (ix3 b s e) * W (ix2 e h) := rfl

/-- The scores of one query row against every key row, scaled. -/
def scoreRow (qrow : Fin 128 → EReal) (K : Fin 2048 → Fin 128 → EReal) (k : Fin 2048) : EReal :=
  (∑ h : Fin 128, qrow h * K k h) * scaleWord

/-- One output entry from one projected query row, the batch's projected keys and one column of its projected values:
    the doubly normalised scores against the value column. -/
def attnRow (qrow : Fin 128 → EReal) (K : Fin 2048 → Fin 128 → EReal) (vcol : Fin 2048 → EReal) : EReal :=
  ∑ k : Fin 2048, rowSoftmax lowWord (rowSoftmax lowWord (scoreRow qrow K)) k * vcol k

/-- Attention over projected arrays: entry (b, q, h) reads row (b, q) of Q, batch b of K, and column h of batch b of V. -/
def attnArr (Q K V : Arr3 8 2048 128) : Arr3 8 2048 128 := fun i =>
  attnRow (fun h => Q (ix3 (⟨(i 0).val, (i 0).isLt⟩ : Fin 8) (⟨(i 1).val, (i 1).isLt⟩ : Fin 2048) h))
    (fun k h => K (ix3 (⟨(i 0).val, (i 0).isLt⟩ : Fin 8) k h))
    (fun k => V (ix3 (⟨(i 0).val, (i 0).isLt⟩ : Fin 8) k (⟨(i 2).val, (i 2).isLt⟩ : Fin 128)))

theorem attnArr_apply (Q K V : Arr3 8 2048 128) (b : Fin 8) (q : Fin 2048) (h : Fin 128) :
    attnArr Q K V (ix3 b q h)
      = attnRow (fun h' => Q (ix3 b q h')) (fun k h' => K (ix3 b k h')) (fun k => V (ix3 b k h)) := rfl

/-- The whole function: project the three inputs, then attend. -/
def attention (X0 X1 X2 : Arr3 8 2048 1024) (W0 W1 W2 : Arr2 1024 128) : Arr3 8 2048 128 :=
  attnArr (projArr X0 W0) (projArr X1 W1) (projArr X2 W2)

end Cert.Attention

end
-- ==== Proof.RefValue.lean ====
/-
  The reference program computes the attention function. Its three projections are projArr of an input and a
  weight; its scores are the inner products of projected rows times the scale word; each of its two normalisations is the
  host's spelling of rowSoftmax along the last axis; its last product sums the doubly normalised weights against the
  projected values. So its result is attention of the six arguments, index by index.
-/
import proofs.«159014_j64141041598682_1_alg».proof.Proof.Gen.ReferenceIdeal.Read
import proofs.«159014_j64141041598682_1_alg».proof.Proof.LibSoftmaxRows
import proofs.«159014_j64141041598682_1_alg».proof.Proof.Attention

noncomputable section

open scoped BigOperators

namespace Cert.ReferenceIdeal.RefValue

open Idealize.ShloMosaic Idealize.ShloMosaic.ValueIdx Cert.ReferenceIdeal Cert.ReferenceIdeal.Read
open Cert.Lib.SoftmaxRows Cert.Attention

variable (x0 x1 x2 : (⟨S8x2048x1024, .f32⟩ : BufTy).Contents (Elt Ideal)) (x3 x4 x5 : (⟨S1024x128, .f32⟩ : BufTy).Contents (Elt Ideal))

/-! ## The projections -/

theorem proj0 : val_main_v0 (F := Ideal) x0 x3 = projArr x0 x3 := by
  funext i
  rw [val_main_v0_apply]
  refine Finset.sum_congr rfl fun e _ => ?_
  rw [show lidx_main_v0 i e = ix3 (⟨(i 0).val, (i 0).isLt⟩ : Fin 8) (⟨(i 1).val, (i 1).isLt⟩ : Fin 2048) e from
      funext fun a => by match a with | ⟨0, _⟩ => rfl | ⟨1, _⟩ => rfl | ⟨2, _⟩ => rfl,
    show ridx_main_v0 i e = ix2 e (⟨(i 2).val, (i 2).isLt⟩ : Fin 128) from
      funext fun a => by match a with | ⟨0, _⟩ => rfl | ⟨1, _⟩ => rfl]

theorem proj1 : val_main_v1 (F := Ideal) x1 x4 = projArr x1 x4 := by
  funext i
  rw [val_main_v1_apply]
  refine Finset.sum_congr rfl fun e _ => ?_
  rw [show lidx_main_v1 i e = ix3 (⟨(i 0).val, (i 0).isLt⟩ : Fin 8) (⟨(i 1).val, (i 1).isLt⟩ : Fin 2048) e from
      funext fun a => by match a with | ⟨0, _⟩ => rfl | ⟨1, _⟩ => rfl | ⟨2, _⟩ => rfl,
    show ridx_main_v1 i e = ix2 e (⟨(i 2).val, (i 2).isLt⟩ : Fin 128) from
      funext fun a => by match a with | ⟨0, _⟩ => rfl | ⟨1, _⟩ => rfl]

theorem proj2 : val_main_v2 (F := Ideal) x2 x5 = projArr x2 x5 := by
  funext i
  rw [val_main_v2_apply]
  refine Finset.sum_congr rfl fun e _ => ?_
  rw [show lidx_main_v2 i e = ix3 (⟨(i 0).val, (i 0).isLt⟩ : Fin 8) (⟨(i 1).val, (i 1).isLt⟩ : Fin 2048) e from
      funext fun a => by match a with | ⟨0, _⟩ => rfl | ⟨1, _⟩ => rfl | ⟨2, _⟩ => rfl,
    show ridx_main_v2 i e = ix2 e (⟨(i 2).val, (i 2).isLt⟩ : Fin 128) from
      funext fun a => by match a with | ⟨0, _⟩ => rfl | ⟨1, _⟩ => rfl]

/-! ## The scores -/

theorem score_apply (b : Fin 8) (q k : Fin 2048) :
    val_main_v5 (F := Ideal) x0 x1 x3 x4 (ix3 b q k)
      = scoreRow (fun h => projArr x0 x3 (ix3 b q h)) (fun k' h => projArr x1 x4 (ix3 b k' h)) k := by
  rw [val_main_v5_apply, val_main_v3_apply, val_main_v4_apply, val_main_cst_apply, proj0, proj1]
  show (∑ h : Fin 128, projArr x0 x3 (lidx_main_v3 (ix3 b q k) h) * projArr x1 x4 (ridx_main_v3 (ix3 b q k) h)) * scaleWord = _
  refine congrArg (· * scaleWord) (Finset.sum_congr rfl fun h _ => ?_)
  rw [show lidx_main_v3 (ix3 b q k) h = ix3 b q h from
      funext fun a => by match a with | ⟨0, _⟩ => rfl | ⟨1, _⟩ => rfl | ⟨2, _⟩ => rfl,
    show ridx_main_v3 (ix3 b q k) h = ix3 b k h from
      funext fun a => by match a with | ⟨0, _⟩ => rfl | ⟨1, _⟩ => rfl | ⟨2, _⟩ => rfl]

/-! ## The two normalisations -/

theorem weights1_eq : val_main_v16 (F := Ideal) x0 x1 x3 x4
    = hostSoftmax (val_main_v5 (F := Ideal) x0 x1 x3 x4) (constant (F := Ideal) S_ .f32 0xFF800000#32)
        (constant (F := Ideal) S_ .f32 0xFF800000#32) (constant (F := Ideal) S_ .f32 0x00000000#32)
        Gen.bcast_S_S8x2048 Gen.bcast_S8x2048_S8x2048x1_0_1 Gen.bcast_S8x2048x1_S8x2048x2048_0_1_2
        Gen.reducesTo_S8x2048x2048_S8x2048_d2 Gen.h_S_ := rfl

theorem weights2_eq : val_main_v27 (F := Ideal) x0 x1 x3 x4
    = hostSoftmax (val_main_v16 (F := Ideal) x0 x1 x3 x4) (constant (F := Ideal) S_ .f32 0xFF800000#32)
        (constant (F := Ideal) S_ .f32 0xFF800000#32) (constant (F := Ideal) S_ .f32 0x00000000#32)
        Gen.bcast_S_S8x2048 Gen.bcast_S8x2048_S8x2048x1_0_1 Gen.bcast_S8x2048x1_S8x2048x2048_0_1_2
        Gen.reducesTo_S8x2048x2048_S8x2048_d2 Gen.h_S_ := rfl

/-! ## The result -/

theorem out_apply (b : Fin 8) (q : Fin 2048) (h : Fin 128) :
    val_main_v28 (F := Ideal) x0 x1 x2 x3 x4 x5 (ix3 b q h)
      = attnRow (fun h' => projArr x0 x3 (ix3 b q h')) (fun k h' => projArr x1 x4 (ix3 b k h'))
          (fun k => projArr x2 x5 (ix3 b k h)) := by
  rw [val_main_v28_apply]
  unfold attnRow
  refine Finset.sum_congr rfl fun k _ => ?_
  rw [show lidx_main_v28 (ix3 b q h) k = ix3 b q k from
      funext fun a => by match a with | ⟨0, _⟩ => rfl | ⟨1, _⟩ => rfl | ⟨2, _⟩ => rfl,
    show ridx_main_v28 (ix3 b q h) k = ix3 b k h from
      funext fun a => by match a with | ⟨0, _⟩ => rfl | ⟨1, _⟩ => rfl | ⟨2, _⟩ => rfl, proj2]
  refine congrArg (· * projArr x2 x5 (ix3 b k h)) ?_
  rw [weights2_eq, hostSoftmax_apply]
  refine congrArg (fun r => rowSoftmax lowWord r k) (funext fun k' => ?_)
  rw [weights1_eq, hostSoftmax_apply]
  exact congrArg (fun r => rowSoftmax lowWord r k') (funext fun k'' => score_apply x0 x1 x3 x4 b q k'')

/-- The reference's result is attention of its six arguments. -/
theorem result_eq : val_main_v28 (F := Ideal) x0 x1 x2 x3 x4 x5 = attention x0 x1 x2 x3 x4 x5 := by
  funext i
  obtain ⟨b, q, h, rfl⟩ : ∃ (b : Fin 8) (q : Fin 2048) (h : Fin 128), i = ix3 b q h := ⟨i 0, i 1, i 2, eq_ix3 i⟩
  exact out_apply x0 x1 x2 x3 x4 x5 b q h

end Cert.ReferenceIdeal.RefValue

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.Bodies.lean ====
/-
  What the two kernel bodies compute from the blocks they load, read at an index on the extended reals.
  The projection body: entry (0, p, h) of each stored block is the sum over e of the loaded input block at (0, p, e)
  times the loaded weight at (e, h) — a matrix product into a zero accumulator, the changes of float format the
  identity. The attention body: entry (0, p, h) of the stored block is attnRow of row p of the loaded query block, the
  loaded key block and column h of the loaded value block — a product against the transposed keys, the scale, the
  normalisation of every row twice, a product with the values.
-/
import proofs.«159014_j64141041598682_1_alg».proof.Proof.Gen.KernelIdeal.Skeleton
import proofs.«159014_j64141041598682_1_alg».proof.Proof.LibBlockReads
import proofs.«159014_j64141041598682_1_alg».proof.Proof.LibSoftmaxRows
import proofs.«159014_j64141041598682_1_alg».proof.Proof.Attention

noncomputable section

open scoped BigOperators

namespace Cert.KernelIdeal.Bodies

open Idealize.ShloMosaic Idealize.ShloMosaic.ValueIdx Cert.KernelIdeal Cert.KernelIdeal.Gen
open Cert.Lib Cert.Lib.SoftmaxRows Cert.Attention

/-! ## The projection body -/

/-- A 1×512×1024 input block times a 1024×128 weight, as a 512×128 matrix at (p, h). -/
theorem projMat_apply (x : FVec Ideal S1x512x1024 .f32) (w : FVec Ideal S1024x128 .f32) (p : Fin 512) (h : Fin 128) :
    matmul dot_S512x1024_S1024x128_S512x128_1_0_0_1_n_n none
        (truncf .bf16 (shapeCast S512x1024 x shapeCasts_S1x512x1024_S512x1024) bitsLt_bf16_f32)
        (truncf .bf16 w bitsLt_bf16_f32) (constant S512x128 .f32 0x00000000#32) (ix2 p h)
      = ∑ e : Fin 1024, x (ix3 0 p e) * w (ix2 e h) := by
  refine (BlockReads.matmul_zero_rows_apply dot_S512x1024_S1024x128_S512x128_1_0_0_1_n_n rfl rfl rfl rfl rfl rfl none _ _ p h).trans ?_
  refine Finset.sum_congr rfl fun e _ => ?_
  exact congrArg (· * w (ix2 e h)) (dropLead_apply x shapeCasts_S1x512x1024_S512x1024 p e)

/-- The block stored into the first output, at (0, p, h). -/
theorem pay2_apply (x : FVec Ideal S1x512x1024 .f32) (w : FVec Ideal S1024x128 .f32) (p : Fin 512) (h : Fin 128) :
    k0_pay2 (F := Ideal) x w (ix3 0 p h) = ∑ e : Fin 1024, x (ix3 0 p e) * w (ix2 e h) :=
  (addLead_apply _ shapeCasts_S512x128_S1x512x128 p h).trans (projMat_apply x w p h)

/-- The block stored into the second output, at (0, p, h). -/
theorem pay3_apply (x : FVec Ideal S1x512x1024 .f32) (w : FVec Ideal S1024x128 .f32) (p : Fin 512) (h : Fin 128) :
    k0_pay3 (F := Ideal) x w (ix3 0 p h) = ∑ e : Fin 1024, x (ix3 0 p e) * w (ix2 e h) :=
  (addLead_apply _ shapeCasts_S512x128_S1x512x128 p h).trans (projMat_apply x w p h)

/-- The block stored into the third output, at (0, p, h). -/
theorem pay14_apply (x : FVec Ideal S1x512x1024 .f32) (w : FVec Ideal S1024x128 .f32) (p : Fin 512) (h : Fin 128) :
    k0_pay1 (F := Ideal) (k0_pay4 (F := Ideal) x w) (ix3 0 p h) = ∑ e : Fin 1024, x (ix3 0 p e) * w (ix2 e h) :=
  (addLead_apply _ shapeCasts_S512x128_S1x512x128 p h).trans (projMat_apply x w p h)

/-! ## The attention body -/

/-- The body's scaled scores of a 128-row query block against the 2048 key rows, at (p, k). -/
def bodyScores (x0 : FVec Ideal S1x128x128 .bf16) (x1 : FVec Ideal S1x2048x128 .bf16) : FVec Ideal S128x2048 .f32 :=
  mulf (matmul dot_S128x128_S2048x128_S128x2048_1_1_0_0_n_n none (shapeCast S128x128 x0 shapeCasts_S1x128x128_S128x128)
      (shapeCast S2048x128 x1 shapeCasts_S1x2048x128_S2048x128) (constant S128x2048 .f32 0x00000000#32))
    (broadcast S128x2048 (Scalar.ofBits (F := Ideal) .f32 0x3DB504F3#32))

theorem bodyScores_apply (x0 : FVec Ideal S1x128x128 .bf16) (x1 : FVec Ideal S1x2048x128 .bf16) (p : Fin 128) (k : Fin 2048) :
    bodyScores x0 x1 (ix2 p k) = scoreRow (fun h => x0 (ix3 0 p h)) (fun k' h => x1 (ix3 0 k' h)) k := by
  show matmul dot_S128x128_S2048x128_S128x2048_1_1_0_0_n_n none (shapeCast S128x128 x0 shapeCasts_S1x128x128_S128x128)
      (shapeCast S2048x128 x1 shapeCasts_S1x2048x128_S2048x128) (constant S128x2048 .f32 0x00000000#32) (ix2 p k) * scaleWord = _
  refine congrArg (· * scaleWord) ?_
  refine (BlockReads.matmul_zero_cols_apply dot_S128x128_S2048x128_S128x2048_1_1_0_0_n_n rfl rfl rfl rfl rfl rfl none _ _ p k).trans ?_
  refine Finset.sum_congr rfl fun h _ => ?_
  rw [dropLead_apply x0 shapeCasts_S1x128x128_S128x128 p h, dropLead_apply x1 shapeCasts_S1x2048x128_S2048x128 k h]

/-- The attention body's stored block is the product of the doubly normalised scores with the value block, the unit
    leading axis put back. -/
theorem pay1_eq (x0 : FVec Ideal S1x128x128 .bf16) (x1 x2 : FVec Ideal S1x2048x128 .bf16) :
    k1_pay1 (F := Ideal) x0 x1 x2 = shapeCast S1x128x128 (matmul dot_S128x2048_S2048x128_S128x128_1_0_0_1_n_n none
        (truncf .bf16 (bodySoftmax (bodySoftmax (bodyScores x0 x1) reduces_S128x2048_S128 shapeCasts_S128_S128x1 broadcasts_S128x1_S128x2048)
          reduces_S128x2048_S128 shapeCasts_S128_S128x1 broadcasts_S128x1_S128x2048) bitsLt_bf16_f32)
        (shapeCast S2048x128 x2 shapeCasts_S1x2048x128_S2048x128) (constant S128x128 .f32 0x00000000#32))
      shapeCasts_S128x128_S1x128x128 := rfl

/-- The attention body's stored block at (0, p, h). -/
theorem pay1_apply (x0 : FVec Ideal S1x128x128 .bf16) (x1 x2 : FVec Ideal S1x2048x128 .bf16) (p : Fin 128) (h : Fin 128) :
    k1_pay1 (F := Ideal) x0 x1 x2 (ix3 0 p h)
      = attnRow (fun h' => x0 (ix3 0 p h')) (fun k h' => x1 (ix3 0 k h')) (fun k => x2 (ix3 0 k h)) := by
  rw [pay1_eq]
  refine (addLead_apply _ shapeCasts_S128x128_S1x128x128 p h).trans ?_
  refine (BlockReads.matmul_zero_rows_apply dot_S128x2048_S2048x128_S128x128_1_0_0_1_n_n rfl rfl rfl rfl rfl rfl none _ _ p h).trans ?_
  unfold attnRow
  refine Finset.sum_congr rfl fun k _ => ?_
  rw [dropLead_apply x2 shapeCasts_S1x2048x128_S2048x128 k h]
  refine congrArg (· * x2 (ix3 0 k h)) ?_
  show bodySoftmax (bodySoftmax (bodyScores x0 x1) reduces_S128x2048_S128 shapeCasts_S128_S128x1 broadcasts_S128x1_S128x2048)
      reduces_S128x2048_S128 shapeCasts_S128_S128x1 broadcasts_S128x1_S128x2048 (ix2 p k) = _
  rw [bodySoftmax_apply]
  refine congrArg (fun r => rowSoftmax lowWord r k) (funext fun k' => ?_)
  rw [bodySoftmax_apply]
  exact congrArg (fun r => rowSoftmax lowWord r k') (funext fun k'' => bodyScores_apply x0 x1 p k'')

end Cert.KernelIdeal.Bodies

end
-- ==== Proof.ProjArrays.lean ====
/-
  The projection region's three output arrays after its run. Each grid point (b, s) writes back a 1×512×128 block
  whose entry (0, p, h) is the sum over e of the input block's (0, p, e) times the weight's (e, h); the input block at the
  point is rows 512·s … 512·s + 511 of batch b of the argument array, and the weight block is the whole weight. So what
  the point writes back is its block of projArr of the two arrays; the 8×4 blocks tile the 8×2048×128 array, so the
  array ends holding projArr of the input and the weight as the region finds them.
-/
import proofs.«159014_j64141041598682_1_alg».proof.Proof.Gen.KernelIdeal.Frame
import proofs.«159014_j64141041598682_1_alg».proof.Proof.Bodies
import Idealize.ShloMosaic.Lib.Pipeline.Value
import Idealize.ShloMosaic.Lib.Tactic

noncomputable section

open scoped BigOperators

namespace Cert.KernelIdeal.ProjArrays

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bodies Cert.Lib.SoftmaxRows Cert.Attention

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the three inputs and the three outputs move together, block (b, s, 0) at
    point (b, s); the weights stay at block (0, 0). -/
theorem idx_facts : ∀ t : Fin cfg0.N,
    (∀ a : Fin 3, win0_0.index t a = win0_6.index t a) ∧ (∀ a : Fin 3, win0_1.index t a = win0_6.index t a)
    ∧ (∀ a : Fin 3, win0_2.index t a = win0_6.index t a) ∧ (∀ a : Fin 3, win0_7.index t a = win0_6.index t a)
    ∧ (∀ a : Fin 3, win0_8.index t a = win0_6.index t a)
    ∧ (∀ a : Fin 2, win0_3.index t a = 0) ∧ (∀ a : Fin 2, win0_4.index t a = 0) ∧ (∀ a : Fin 2, win0_5.index t a = 0)
    ∧ win0_6.index t (0 : Fin 3) ≤ 7 ∧ win0_6.index t (1 : Fin 3) ≤ 3 ∧ win0_6.index t (2 : Fin 3) = 0 :=
  (by decide +kernel : ∀ t : Fin grid0.N, _)

/-- Every block of the array is some point's. -/
theorem idx_onto : ∀ (q0 : Fin 8) (q1 : Fin 4), ∃ t : Fin cfg0.N, win0_6.index t = ![q0.val, q1.val, 0] :=
  (by decide +kernel : ∀ (q0 : Fin 8) (q1 : Fin 4), ∃ t : Fin grid0.N, win0_6.index t = ![q0.val, q1.val, 0])

/-- What point t writes back through output window 6 is block t of projArr of input 0 and weight 3. -/
theorem flushed6_eq (c : Dev nD) (t : Fin cfg0.N) :
    (dat0 V c).flushed 6 t = ((cfg0.win 6).blk t).view.read (Elt Ideal) (projArr (V c main_arg0) (V c main_arg3)) := by
  show (cfg0.win 6).cut (grid0.coords t) ((dat0 V c).after 6 t) = _
  rw [after0_6]
  unfold out0_6
  rw [View.canon_unit_zero hz3]
  simp only [View.ld_unit_zero (S := S1x512x1024) hz3, View.ld_unit_zero (S := S1024x128) hz2]
  obtain ⟨e0, e1, e2, e7, e8, e3, e4, e5, -, -, e62⟩ := idx_facts t
  funext j
  obtain ⟨p, h, rfl⟩ : ∃ (p : Fin 512) (h : Fin 128), j = ix3 0 p h := ⟨j 1, j 2, eq_ix3_lead j⟩
  show k0_pay2 (F := Ideal) (iblk0 V c 0 t) (iblk0 V c 3 t) (ix3 0 p h)
    = projArr (V c main_arg0) (V c main_arg3) (((cfg0.win 6).blk t).view.emb (ix3 0 p h))
  refine (pay2_apply _ _ p h).trans (Finset.sum_congr rfl fun e _ => ?_)
  have hi : ((cfg0.win 0).blk t).view.emb (ix3 0 p e)
      = ix3 (⟨((((cfg0.win 6).blk t).view.emb (ix3 0 p h)) 0).val, ((((cfg0.win 6).blk t).view.emb (ix3 0 p h)) 0).isLt⟩ : Fin 8)
          (⟨((((cfg0.win 6).blk t).view.emb (ix3 0 p h)) 1).val, ((((cfg0.win 6).blk t).view.emb (ix3 0 p h)) 1).isLt⟩ : Fin 2048) e := by
    funext a; apply Fin.ext
    match a with
    | ⟨0, _⟩ => show win0_0.index t (0 : Fin 3) * 1 + 1 * 0 = win0_6.index t (0 : Fin 3) * 1 + 1 * 0; rw [e0 0]
    | ⟨1, _⟩ => show win0_0.index t (1 : Fin 3) * 512 + 1 * p.val = win0_6.index t (1 : Fin 3) * 512 + 1 * p.val; rw [e0 1]
    | ⟨2, _⟩ => show win0_0.index t (2 : Fin 3) * 1024 + 1 * e.val = e.val; rw [e0 2, e62]; omega
  have hw : ((cfg0.win 3).blk t).view.emb (ix2 e h)
      = ix2 e (⟨((((cfg0.win 6).blk t).view.emb (ix3 0 p h)) 2).val, ((((cfg0.win 6).blk t).view.emb (ix3 0 p h)) 2).isLt⟩ : Fin 128) := by
    funext a; apply Fin.ext
    match a with
    | ⟨0, _⟩ => show win0_3.index t (0 : Fin 2) * 1024 + 1 * e.val = e.val; rw [e3 0]; omega
    | ⟨1, _⟩ => show win0_3.index t (1 : Fin 2) * 128 + 1 * h.val = win0_6.index t (2 : Fin 3) * 128 + 1 * h.val; rw [e3 1, e62]
  exact congrArg₂ (fun x y : EReal => x * y) (congrArg (V c main_arg0) hi) (congrArg (V c main_arg3) hw)

/-- An index of the array is in point t's block of window 6 iff each coordinate is in the block's range. -/
theorem mem_blk6 (t : Fin cfg0.N) (i : S8x2048x128.Idx) :
    i ∈ ((cfg0.win 6).blk t).view.set ↔ ∀ a : Fin 3, win0_6.index t a * S1x512x128.size a ≤ (i a).val ∧ (i a).val < win0_6.index t a * S1x512x128.size a + S1x512x128.size a := by
  show i ∈ ((View.whole main_v0_0).slice (win0_6.rect t)).set ↔ _
  rw [View.set_slice_whole, Rect.mem_set_unit]
  exact Iff.rfl

/-- The blocks of window 6 cover its array: row s of batch b lies in the block of point (b, s / 512). -/
theorem cover6 (i : S8x2048x128.Idx) : ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  obtain ⟨-, -, -, e7, e8, -, -, -, -, -, -⟩ := idx_facts t
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 128 ≤ (i 2).val ∧ (i 2).val < win0_6.index t (2 : Fin 3) * 128 + 128; omega

/-- The array of window 6 after the region: projArr of input 0 and weight 3 as the region finds them. -/
theorem final6 (c : Dev nD) : (dat0 V c).arrAt 6 cfg0.N = projArr (V c main_arg0) (V c main_arg3) :=
  (dat0 V c).arrAt_eq_of_cover 6 _ (fun t _ => flushed6_eq V c t) cover6

/-- What point t writes back through output window 7 is block t of projArr of input 1 and weight 4. -/
theorem flushed7_eq (c : Dev nD) (t : Fin cfg0.N) :
    (dat0 V c).flushed 7 t = ((cfg0.win 7).blk t).view.read (Elt Ideal) (projArr (V c main_arg1) (V c main_arg4)) := by
  show (cfg0.win 7).cut (grid0.coords t) ((dat0 V c).after 7 t) = _
  rw [after0_7]
  unfold out0_7
  rw [View.canon_unit_zero hz3]
  simp only [View.ld_unit_zero (S := S1x512x1024) hz3, View.ld_unit_zero (S := S1024x128) hz2]
  obtain ⟨e0, e1, e2, e7, e8, e3, e4, e5, -, -, e62⟩ := idx_facts t
  funext j
  obtain ⟨p, h, rfl⟩ : ∃ (p : Fin 512) (h : Fin 128), j = ix3 0 p h := ⟨j 1, j 2, eq_ix3_lead j⟩
  show k0_pay3 (F := Ideal) (iblk0 V c 1 t) (iblk0 V c 4 t) (ix3 0 p h)
    = projArr (V c main_arg1) (V c main_arg4) (((cfg0.win 7).blk t).view.emb (ix3 0 p h))
  refine (pay3_apply _ _ p h).trans (Finset.sum_congr rfl fun e _ => ?_)
  have hi : ((cfg0.win 1).blk t).view.emb (ix3 0 p e)
      = ix3 (⟨((((cfg0.win 7).blk t).view.emb (ix3 0 p h)) 0).val, ((((cfg0.win 7).blk t).view.emb (ix3 0 p h)) 0).isLt⟩ : Fin 8)
          (⟨((((cfg0.win 7).blk t).view.emb (ix3 0 p h)) 1).val, ((((cfg0.win 7).blk t).view.emb (ix3 0 p h)) 1).isLt⟩ : Fin 2048) e := by
    funext a; apply Fin.ext
    match a with
    | ⟨0, _⟩ => show win0_1.index t (0 : Fin 3) * 1 + 1 * 0 = win0_7.index t (0 : Fin 3) * 1 + 1 * 0; rw [e1 0, e7 0]
    | ⟨1, _⟩ => show win0_1.index t (1 : Fin 3) * 512 + 1 * p.val = win0_7.index t (1 : Fin 3) * 512 + 1 * p.val; rw [e1 1, e7 1]
    | ⟨2, _⟩ => show win0_1.index t (2 : Fin 3) * 1024 + 1 * e.val = e.val; rw [e1 2, e62]; omega
  have hw : ((cfg0.win 4).blk t).view.emb (ix2 e h)
      = ix2 e (⟨((((cfg0.win 7).blk t).view.emb (ix3 0 p h)) 2).val, ((((cfg0.win 7).blk t).view.emb (ix3 0 p h)) 2).isLt⟩ : Fin 128) := by
    funext a; apply Fin.ext
    match a with
    | ⟨0, _⟩ => show win0_4.index t (0 : Fin 2) * 1024 + 1 * e.val = e.val; rw [e4 0]; omega
    | ⟨1, _⟩ => show win0_4.index t (1 : Fin 2) * 128 + 1 * h.val = win0_7.index t (2 : Fin 3) * 128 + 1 * h.val; rw [e4 1, e7 2, e62]
  exact congrArg₂ (fun x y : EReal => x * y) (congrArg (V c main_arg1) hi) (congrArg (V c main_arg4) hw)

/-- An index of the array is in point t's block of window 7 iff each coordinate is in the block's range. -/
theorem mem_blk7 (t : Fin cfg0.N) (i : S8x2048x128.Idx) :
    i ∈ ((cfg0.win 7).blk t).view.set ↔ ∀ a : Fin 3, win0_7.index t a * S1x512x128.size a ≤ (i a).val ∧ (i a).val < win0_7.index t a * S1x512x128.size a + S1x512x128.size a := by
  show i ∈ ((View.whole main_v0_1).slice (win0_7.rect t)).set ↔ _
  rw [View.set_slice_whole, Rect.mem_set_unit]
  exact Iff.rfl

/-- The blocks of window 7 cover its array: row s of batch b lies in the block of point (b, s / 512). -/
theorem cover7 (i : S8x2048x128.Idx) : ∃ t : Fin cfg0.N, (cfg0.win 7).flush t = true ∧ i ∈ ((cfg0.win 7).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  obtain ⟨-, -, -, e7, e8, -, -, -, -, -, -⟩ := idx_facts t
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_7 t, ?_⟩
  rw [mem_blk7]
  intro a
  match a with
  | ⟨0, _⟩ => show win0_7.index t (0 : Fin 3) * 1 ≤ (i 0).val ∧ (i 0).val < win0_7.index t (0 : Fin 3) * 1 + 1; rw [e7 0]; omega
  | ⟨1, _⟩ => show win0_7.index t (1 : Fin 3) * 512 ≤ (i 1).val ∧ (i 1).val < win0_7.index t (1 : Fin 3) * 512 + 512; rw [e7 1]; omega
  | ⟨2, _⟩ => show win0_7.index t (2 : Fin 3) * 128 ≤ (i 2).val ∧ (i 2).val < win0_7.index t (2 : Fin 3) * 128 + 128; rw [e7 2]; omega

/-- The array of window 7 after the region: projArr of input 1 and weight 4 as the region finds them. -/
theorem final7 (c : Dev nD) : (dat0 V c).arrAt 7 cfg0.N = projArr (V c main_arg1) (V c main_arg4) :=
  (dat0 V c).arrAt_eq_of_cover 7 _ (fun t _ => flushed7_eq V c t) cover7

/-- What point t writes back through output window 8 is block t of projArr of input 2 and weight 5. -/
theorem flushed8_eq (c : Dev nD) (t : Fin cfg0.N) :
    (dat0 V c).flushed 8 t = ((cfg0.win 8).blk t).view.read (Elt Ideal) (projArr (V c main_arg2) (V c main_arg5)) := by
  show (cfg0.win 8).cut (grid0.coords t) ((dat0 V c).after 8 t) = _
  rw [after0_8]
  unfold out0_8
  rw [View.canon_unit_zero hz3]
  simp only [View.ld_unit_zero (S := S1x512x1024) hz3, View.ld_unit_zero (S := S1024x128) hz2]
  obtain ⟨e0, e1, e2, e7, e8, e3, e4, e5, -, -, e62⟩ := idx_facts t
  funext j
  obtain ⟨p, h, rfl⟩ : ∃ (p : Fin 512) (h : Fin 128), j = ix3 0 p h := ⟨j 1, j 2, eq_ix3_lead j⟩
  show k0_pay1 (F := Ideal) (k0_pay4 (F := Ideal) (iblk0 V c 2 t) (iblk0 V c 5 t)) (ix3 0 p h)
    = projArr (V c main_arg2) (V c main_arg5) (((cfg0.win 8).blk t).view.emb (ix3 0 p h))
  refine (pay14_apply _ _ p h).trans (Finset.sum_congr rfl fun e _ => ?_)
  have hi : ((cfg0.win 2).blk t).view.emb (ix3 0 p e)
      = ix3 (⟨((((cfg0.win 8).blk t).view.emb (ix3 0 p h)) 0).val, ((((cfg0.win 8).blk t).view.emb (ix3 0 p h)) 0).isLt⟩ : Fin 8)
          (⟨((((cfg0.win 8).blk t).view.emb (ix3 0 p h)) 1).val, ((((cfg0.win 8).blk t).view.emb (ix3 0 p h)) 1).isLt⟩ : Fin 2048) e := by
    funext a; apply Fin.ext
    match a with
    | ⟨0, _⟩ => show win0_2.index t (0 : Fin 3) * 1 + 1 * 0 = win0_8.index t (0 : Fin 3) * 1 + 1 * 0; rw [e2 0, e8 0]
    | ⟨1, _⟩ => show win0_2.index t (1 : Fin 3) * 512 + 1 * p.val = win0_8.index t (1 : Fin 3) * 512 + 1 * p.val; rw [e2 1, e8 1]
    | ⟨2, _⟩ => show win0_2.index t (2 : Fin 3) * 1024 + 1 * e.val = e.val; rw [e2 2, e62]; omega
  have hw : ((cfg0.win 5).blk t).view.emb (ix2 e h)
      = ix2 e (⟨((((cfg0.win 8).blk t).view.emb (ix3 0 p h)) 2).val, ((((cfg0.win 8).blk t).view.emb (ix3 0 p h)) 2).isLt⟩ : Fin 128) := by
    funext a; apply Fin.ext
    match a with
    | ⟨0, _⟩ => show win0_5.index t (0 : Fin 2) * 1024 + 1 * e.val = e.val; rw [e5 0]; omega
    | ⟨1, _⟩ => show win0_5.index t (1 : Fin 2) * 128 + 1 * h.val = win0_8.index t (2 : Fin 3) * 128 + 1 * h.val; rw [e5 1, e8 2, e62]
  exact congrArg₂ (fun x y : EReal => x * y) (congrArg (V c main_arg2) hi) (congrArg (V c main_arg5) hw)

/-- An index of the array is in point t's block of window 8 iff each coordinate is in the block's range. -/
theorem mem_blk8 (t : Fin cfg0.N) (i : S8x2048x128.Idx) :
    i ∈ ((cfg0.win 8).blk t).view.set ↔ ∀ a : Fin 3, win0_8.index t a * S1x512x128.size a ≤ (i a).val ∧ (i a).val < win0_8.index t a * S1x512x128.size a + S1x512x128.size a := by
  show i ∈ ((View.whole main_v0_2).slice (win0_8.rect t)).set ↔ _
  rw [View.set_slice_whole, Rect.mem_set_unit]
  exact Iff.rfl

/-- The blocks of window 8 cover its array: row s of batch b lies in the block of point (b, s / 512). -/
theorem cover8 (i : S8x2048x128.Idx) : ∃ t : Fin cfg0.N, (cfg0.win 8).flush t = true ∧ i ∈ ((cfg0.win 8).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 512, by omega⟩
  obtain ⟨-, -, -, e7, e8, -, -, -, -, -, -⟩ := idx_facts t
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; rw [e8 0]; omega
  | ⟨1, _⟩ => show win0_8.index t (1 : Fin 3) * 512 ≤ (i 1).val ∧ (i 1).val < win0_8.index t (1 : Fin 3) * 512 + 512; rw [e8 1]; omega
  | ⟨2, _⟩ => show win0_8.index t (2 : Fin 3) * 128 ≤ (i 2).val ∧ (i 2).val < win0_8.index t (2 : Fin 3) * 128 + 128; rw [e8 2]; omega

/-- The array of window 8 after the region: projArr of input 2 and weight 5 as the region finds them. -/
theorem final8 (c : Dev nD) : (dat0 V c).arrAt 8 cfg0.N = projArr (V c main_arg2) (V c main_arg5) :=
  (dat0 V c).arrAt_eq_of_cover 8 _ (fun t _ => flushed8_eq V c t) cover8

end Cert.KernelIdeal.ProjArrays

end
-- ==== Proof.AttnArray.lean ====
/-
  The attention region's output array after its run. Grid point (b, i) writes back a 1×128×128 block whose entry
  (0, p, h) is attnRow of row p of its query block, its key block and column h of its value block; the query block at
  the point is rows 128·i … 128·i + 127 of batch b of the first array, the key and value blocks are all of batch b of
  the second and third. So what the point writes back is its block of attnArr of the three arrays; the 8×16 blocks
  tile the 8×2048×128 array, so the array ends holding attnArr of the three arrays as the region finds them.
-/
import proofs.«159014_j64141041598682_1_alg».proof.Proof.Gen.KernelIdeal.Frame
import proofs.«159014_j64141041598682_1_alg».proof.Proof.Bodies
import Idealize.ShloMosaic.Lib.Pipeline.Value
import Idealize.ShloMosaic.Lib.Tactic

noncomputable section

open scoped BigOperators

namespace Cert.KernelIdeal.AttnArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Bodies Cert.Lib.SoftmaxRows Cert.Attention

variable (V : (c : Dev nD) → (b : Ref sig .tc) → Buf (Elt Ideal) ((c : Thread nD τ).loc b))

theorem hz3 : (![0, 0, 0] : Fin 3 → Nat) = fun _ => 0 := funext fun a => by fin_cases a <;> rfl

/-- The printed index maps over the grid: the query and output blocks are (b, i, 0) at point (b, i); the key and value
    blocks are (b, 0, 0). -/
theorem idx_facts : ∀ t : Fin cfg1.N,
    (∀ a : Fin 3, win1_0.index t a = win1_3.index t a)
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 7 ∧ win1_3.index t (1 : Fin 3) ≤ 15 ∧ win1_3.index t (2 : Fin 3) = 0 :=
  (by decide +kernel : ∀ t : Fin grid1.N, _)

/-- Every block of the array is some point's. -/
theorem idx_onto : ∀ (q0 : Fin 8) (q1 : Fin 16), ∃ t : Fin cfg1.N, win1_3.index t = ![q0.val, q1.val, 0] :=
  (by decide +kernel : ∀ (q0 : Fin 8) (q1 : Fin 16), ∃ t : Fin grid1.N, win1_3.index t = ![q0.val, q1.val, 0])

/-- What point t writes back is block t of attnArr of the three arrays the region reads. -/
theorem flushed3_eq (c : Dev nD) (t : Fin cfg1.N) :
    (dat1 V c).flushed 3 t
      = ((cfg1.win 3).blk t).view.read (Elt Ideal) (attnArr (V c main_v0_0) (V c main_v0_1) (V c main_v0_2)) := by
  show (cfg1.win 3).cut (grid1.coords t) ((dat1 V c).after 3 t) = _
  rw [after1_3]
  unfold out1_3
  rw [View.canon_unit_zero hz3]
  simp only [View.ld_unit_zero (S := S1x128x128) hz3, View.ld_unit_zero (S := S1x2048x128) hz3]
  obtain ⟨e0, k0, k1, k2, v0, v1, v2, -, -, e32⟩ := idx_facts t
  funext j
  obtain ⟨p, h, rfl⟩ : ∃ (p : Fin 128) (h : Fin 128), j = ix3 0 p h := ⟨j 1, j 2, eq_ix3_lead j⟩
  show k1_pay1 (F := Ideal) (iblk1 V c 0 t) (iblk1 V c 1 t) (iblk1 V c 2 t) (ix3 0 p h)
    = attnArr (V c main_v0_0) (V c main_v0_1) (V c main_v0_2) (((cfg1.win 3).blk t).view.emb (ix3 0 p h))
  refine (pay1_apply _ _ _ p h).trans ?_
  have hq : ∀ h' : Fin 128, ((cfg1.win 0).blk t).view.emb (ix3 0 p h')
      = ix3 (⟨((((cfg1.win 3).blk t).view.emb (ix3 0 p h)) 0).val, ((((cfg1.win 3).blk t).view.emb (ix3 0 p h)) 0).isLt⟩ : Fin 8)
          (⟨((((cfg1.win 3).blk t).view.emb (ix3 0 p h)) 1).val, ((((cfg1.win 3).blk t).view.emb (ix3 0 p h)) 1).isLt⟩ : Fin 2048) h' := by
    intro h'
    funext a; apply Fin.ext
    match a with
    | ⟨0, _⟩ => show win1_0.index t (0 : Fin 3) * 1 + 1 * 0 = win1_3.index t (0 : Fin 3) * 1 + 1 * 0; rw [e0 0]
    | ⟨1, _⟩ => show win1_0.index t (1 : Fin 3) * 128 + 1 * p.val = win1_3.index t (1 : Fin 3) * 128 + 1 * p.val; rw [e0 1]
    | ⟨2, _⟩ => show win1_0.index t (2 : Fin 3) * 128 + 1 * h'.val = h'.val; rw [e0 2, e32]; omega
  have hk : ∀ (k : Fin 2048) (h' : Fin 128), ((cfg1.win 1).blk t).view.emb (ix3 0 k h')
      = ix3 (⟨((((cfg1.win 3).blk t).view.emb (ix3 0 p h)) 0).val, ((((cfg1.win 3).blk t).view.emb (ix3 0 p h)) 0).isLt⟩ : Fin 8) k h' := by
    intro k h'
    funext a; apply Fin.ext
    match a with
    | ⟨0, _⟩ => show win1_1.index t (0 : Fin 3) * 1 + 1 * 0 = win1_3.index t (0 : Fin 3) * 1 + 1 * 0; rw [k0]
    | ⟨1, _⟩ => show win1_1.index t (1 : Fin 3) * 2048 + 1 * k.val = k.val; rw [k1]; omega
    | ⟨2, _⟩ => show win1_1.index t (2 : Fin 3) * 128 + 1 * h'.val = h'.val; rw [k2]; omega
  have hv : ∀ k : Fin 2048, ((cfg1.win 2).blk t).view.emb (ix3 0 k h)
      = ix3 (⟨((((cfg1.win 3).blk t).view.emb (ix3 0 p h)) 0).val, ((((cfg1.win 3).blk t).view.emb (ix3 0 p h)) 0).isLt⟩ : Fin 8) k
          (⟨((((cfg1.win 3).blk t).view.emb (ix3 0 p h)) 2).val, ((((cfg1.win 3).blk t).view.emb (ix3 0 p h)) 2).isLt⟩ : Fin 128) := by
    intro k
    funext a; apply Fin.ext
    match a with
    | ⟨0, _⟩ => show win1_2.index t (0 : Fin 3) * 1 + 1 * 0 = win1_3.index t (0 : Fin 3) * 1 + 1 * 0; rw [v0]
    | ⟨1, _⟩ => show win1_2.index t (1 : Fin 3) * 2048 + 1 * k.val = k.val; rw [v1]; omega
    | ⟨2, _⟩ => show win1_2.index t (2 : Fin 3) * 128 + 1 * h.val = win1_3.index t (2 : Fin 3) * 128 + 1 * h.val; rw [v2, e32]
  exact congr (congr (congrArg attnRow (funext fun h' => (congrArg (V c main_v0_0) (hq h') : (_ : EReal) = _)))
    (funext fun k => funext fun h' => (congrArg (V c main_v0_1) (hk k h') : (_ : EReal) = _)))
    (funext fun k => (congrArg (V c main_v0_2) (hv k) : (_ : EReal) = _))

/-- An index of the array is in point t's block iff each coordinate is in the block's range. -/
theorem mem_blk3 (t : Fin cfg1.N) (i : S8x2048x128.Idx) :
    i ∈ ((cfg1.win 3).blk t).view.set ↔ ∀ a : Fin 3, win1_3.index t a * S1x128x128.size a ≤ (i a).val ∧ (i a).val < win1_3.index t a * S1x128x128.size a + S1x128x128.size a := by
  show i ∈ ((View.whole main_v1).slice (win1_3.rect t)).set ↔ _
  rw [View.set_slice_whole, Rect.mem_set_unit]
  exact Iff.rfl

/-- The blocks cover the array: row q of batch b lies in the block of point (b, q / 128). -/
theorem cover3 (i : S8x2048x128.Idx) : ∃ t : Fin cfg1.N, (cfg1.win 3).flush t = true ∧ i ∈ ((cfg1.win 3).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩ ⟨(i 1).val / 128, by omega⟩
  have q0 : win1_3.index t (0 : Fin 3) = (i 0).val := congrFun ht 0
  have q1 : win1_3.index t (1 : Fin 3) = (i 1).val / 128 := congrFun ht 1
  have q2 : win1_3.index t (2 : Fin 3) = 0 := congrFun ht 2
  refine ⟨t, flush1_3 t, ?_⟩
  rw [mem_blk3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 128 ≤ (i 1).val ∧ (i 1).val < win1_3.index t (1 : Fin 3) * 128 + 128; omega
  | ⟨2, _⟩ => show win1_3.index t (2 : Fin 3) * 128 ≤ (i 2).val ∧ (i 2).val < win1_3.index t (2 : Fin 3) * 128 + 128; omega

/-- The output array after the region: attnArr of the three arrays as the region finds them. -/
theorem final3 (c : Dev nD) : (dat1 V c).arrAt 3 cfg1.N = attnArr (V c main_v0_0) (V c main_v0_1) (V c main_v0_2) :=
  (dat1 V c).arrAt_eq_of_cover 3 _ (fun t _ => flushed3_eq V c t) cover3

end Cert.KernelIdeal.AttnArray

end
-- ==== Proof.KernelRun.lean ====
/-
  The kernel program's run with its result named. The program is two regions: the projection region leaves
  projArr of each input and its weight in the three intermediate arrays, and the attention region, entered with those,
  leaves attnArr of them in the result array; no other buffer of the program is written. So every execution ends with the
  result array at attention of the six argument arrays as launched, and the arguments unchanged.
-/
import proofs.«159014_j64141041598682_1_alg».proof.Proof.Gen.KernelIdeal.Frame
import proofs.«159014_j64141041598682_1_alg».proof.Proof.ProjArrays
import proofs.«159014_j64141041598682_1_alg».proof.Proof.AttnArray

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Attention

section Run
variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at what the second
    region's write-backs leave (the contents W2 of the last segment boundary) and the arguments as launched: the launch
    over the two regions, the last thread state read against the final state at the result array as well as at the
    arguments. -/
theorem run_named : θ_run defs (onTc (τ := τ) (main (F := F))) ⟨m, fun _ => 0, ρ⟩ (fun r => ∀ c : Dev nD,
      r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v1 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c)⟩)

end Run

section Value
variable (m : (ℓ : Loc nD τ sig) → Buf (Elt Ideal) ℓ) (ρ : Dev nD → PrngReg)

/-- The attention region is entered with each intermediate array at projArr of its input and weight as launched. -/
theorem entry_q (c : Dev nD) : V1 m ρ c main_v0_0
    = projArr (m ((c.tc : Thread nD τ).loc main_arg0)) (m ((c.tc : Thread nD τ).loc main_arg3)) :=
  (W1_arr m ρ c 6).trans (ProjArrays.final6 (V0 m ρ) c)
theorem entry_k (c : Dev nD) : V1 m ρ c main_v0_1
    = projArr (m ((c.tc : Thread nD τ).loc main_arg1)) (m ((c.tc : Thread nD τ).loc main_arg4)) :=
  (W1_arr m ρ c 7).trans (ProjArrays.final7 (V0 m ρ) c)
theorem entry_v (c : Dev nD) : V1 m ρ c main_v0_2
    = projArr (m ((c.tc : Thread nD τ).loc main_arg2)) (m ((c.tc : Thread nD τ).loc main_arg5)) :=
  (W1_arr m ρ c 8).trans (ProjArrays.final8 (V0 m ρ) c)

/-- The result array at the last segment boundary is attention of the six arguments as launched. -/
theorem result_eq (c : Dev nD) : W2 m ρ c (Proc.devRef .tc main_v1)
    = attention (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  refine (W2_arr m ρ c 3).trans ((AttnArray.final3 (V1 m ρ) c).trans ?_)
  rw [entry_q, entry_k, entry_v]
  rfl

/-- The run, read: the result array at attention of the arguments, the arguments unchanged. -/
theorem run : θ_run defs (onTc (τ := τ) (main (F := Ideal))) ⟨m, fun _ => 0, ρ⟩ (fun r => ∀ c : Dev nD,
      r.2.mem ((c.tc : Thread nD τ).loc main_v1)
        = attention (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result_eq m ρ c), (h c).2⟩) (run_named m ρ)

end Value

end Cert.KernelIdeal.KernelRun

end
-- ==== Proof.lean ====
/-
  The kernel computes single-head attention with the softmax applied twice, in two regions — three linear projections
  tiled over (batch, 512-row block), then scores, two row normalisations and the weighted sum of values tiled over
  (batch, 128-row query block) — and the reference computes the same with whole-array host operations. On the
  extended reals a change of float format is the identity, a matrix product into a zero accumulator and the host's
  contraction are the same sum, a lane reduction and a host reduce are the same fold or sum, and the two programs apply
  the same operations to the same entries with the same two literal words (the scale and the −∞ a row maximum starts
  from). So both results are the one function Cert.Attention.attention of the six arguments, index by index; no law
  beyond the identity of these spellings is used, and the precondition is never opened.
  The kernel side: what each body stores is read at an index (Bodies), each region's blocks are assembled into its
  arrays (ProjArrays, AttnArray), and the program's run is read with its result named (KernelRun). The reference side: its
  run's term is read one operation at a time (RefValue). The ideal pass rewrote nothing, so the preservation claim is
  trivial; the three frames are the generated ones.
-/
import proofs.«159014_j64141041598682_1_alg».proof.Defs
import proofs.«159014_j64141041598682_1_alg».proof.Proof.Gen.Kernel
import proofs.«159014_j64141041598682_1_alg».proof.Proof.Gen.Kernel.Skeleton
import proofs.«159014_j64141041598682_1_alg».proof.Proof.Gen.Kernel.Launch
import proofs.«159014_j64141041598682_1_alg».proof.Proof.Gen.Kernel.Points
import proofs.«159014_j64141041598682_1_alg».proof.Proof.Gen.Kernel.Frame
import proofs.«159014_j64141041598682_1_alg».proof.Proof.Gen.KernelIdeal
import proofs.«159014_j64141041598682_1_alg».proof.Proof.Gen.KernelIdeal.Skeleton
import proofs.«159014_j64141041598682_1_alg».proof.Proof.Gen.KernelIdeal.Launch
import proofs.«159014_j64141041598682_1_alg».proof.Proof.Gen.KernelIdeal.Points
import proofs.«159014_j64141041598682_1_alg».proof.Proof.Gen.KernelIdeal.Frame
import proofs.«159014_j64141041598682_1_alg».proof.Proof.Gen.ReferenceIdeal
import proofs.«159014_j64141041598682_1_alg».proof.Proof.Gen.Pre_finite_inputs
import proofs.«159014_j64141041598682_1_alg».proof.Proof.Gen.ReferenceIdeal.Run
import proofs.«159014_j64141041598682_1_alg».proof.Proof.Gen.ReferenceIdeal.Read
import proofs.«159014_j64141041598682_1_alg».proof.Proof.RefValue
import proofs.«159014_j64141041598682_1_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten for the extended reals. -/
theorem preserves : Cert.preserves_Kernel_KernelIdeal := trivial

/-- From memories agreeing on the six arguments both programs end with their result arrays at attention of the
    arguments: the kernel by its run read (KernelRun.run), the reference by its run's term read (RefValue.result_eq). -/
theorem algebraic : Cert.algebraic_KernelIdeal_ReferenceIdeal := by
  intro m ρ m' ρ' _ hagree
  refine ⟨_, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.RefValue.result_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
